-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S1600000x128 .f32) (main_arg2 : IVec S1600000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S1600000x128 : Shape := ⟨2, ![1600000, 128]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 28
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S100000x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S100000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v3) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S100000x256 : Shape := ⟨2, ![100000, 256]⟩
abbrev S1x128 : Shape := ⟨2, ![1, 128]⟩
abbrev S100000 : Shape := ⟨1, ![100000]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S100000x256, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  One node's update as a function of the node's own two vectors.

  A node carries its aggregated messages h and its features x, 128 numbers each. Its update is

    a = relu (h·A + x·B + b₁)      u = relu (a·W₂ + b₂)      v = u·W₃ + b₃
    out = (v − mean v) · rsqrt (mean ((v − mean v)²) + ε) · γ + β + x

  with every operation the exact one on the extended reals: a product h·A is the sum over the 128 coordinates k of
  h k · A k c, relu is the maximum with zero, the mean of 128 numbers is their sum divided by 128. Rows of different
  nodes never meet, so the whole array of updates is this function applied row by row.

  The first layer may also be written over the concatenated vector [h, x] and ONE 256 × 128 matrix whose upper half is A
  and lower half is B. A sum over 256 indices is the sum over the first 128 plus the sum over the last 128, and this holds
  on the extended reals with no finiteness assumption: addition there is commutative and associative.
-/
import Idealize.ShloMosaic.PureOps.Ideal
import Idealize.ShloMosaic.PureOps.Ideal.Laws
import Mathlib.Algebra.BigOperators.Fin

noncomputable section

namespace Cert.NodeUpdate

open Idealize.ShloMosaic

/-- A node's 128 numbers. -/
abbrev Row : Type := Fin 128 → EReal
/-- A 128 × 128 matrix, entry (k, c). -/
abbrev Mat : Type := Fin 128 → Fin 128 → EReal

/-- The number zero, as the single-precision word both programs write it with. -/
abbrev zeroWord : EReal := Ideal.ofBits .f32 0x00000000#32
/-- The number 128, the length of a row. -/
abbrev widthWord : EReal := Ideal.ofBits .f32 0x43000000#32
/-- The small number added to the variance before the reciprocal square root. -/
abbrev epsWord : EReal := Ideal.ofBits .f32 0x3727C5AC#32

/-- u·W + b, coordinate c. -/
def affine (u : Row) (W : Mat) (b : Row) : Row := fun c => (∑ k, u k * W k c) + b c

/-- The maximum with zero, coordinate by coordinate. -/
def relu (u : Row) : Row := fun c => max (u c) zeroWord

/-- The first layer on the two vectors: relu (h·A + x·B + b). -/
def firstLayer (h x : Row) (A B : Mat) (b : Row) : Row := fun c =>
  max (((∑ k, h k * A k c) + (∑ k, x k * B k c)) + b c) zeroWord

/-- The mean of a row: its sum divided by 128. -/
def mean (v : Row) : EReal := Ideal.div (∑ c, v c) widthWord

/-- A row minus its mean. -/
def centered (v : Row) : Row := fun c => v c - mean v

/-- Layer normalisation with scale γ and shift β. -/
def normalize (v g be : Row) : Row := fun c =>
  centered v c * Ideal.rsqrt (mean (fun c' => centered v c' * centered v c') + epsWord) * g c + be c

/-- The three layers before the normalisation. -/
def hidden (h x : Row) (A B : Mat) (b1 : Row) (W2 : Mat) (b2 : Row) (W3 : Mat) (b3 : Row) : Row :=
  affine (relu (affine (firstLayer h x A B b1) W2 b2)) W3 b3

/-- The node's update. -/
def update (h x : Row) (A B : Mat) (b1 : Row) (W2 : Mat) (b2 : Row) (W3 : Mat) (b3 g be : Row) : Row := fun c =>
  normalize (hidden h x A B b1 W2 b2 W3 b3) g be c + x c

/-- A sum over 256 indices is the sum over the first 128 plus the sum over the last 128. -/
theorem sum_halves (f : Fin 256 → EReal) :
    ∑ k : Fin 256, f k
      = (∑ k : Fin 128, f ⟨k.val, by have := k.isLt; omega⟩) + ∑ k : Fin 128, f ⟨128 + k.val, by have := k.isLt; omega⟩ := by
  have e := Fin.sum_univ_add (M := EReal) (a := 128) (b := 128) f
  exact e

end Cert.NodeUpdate

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KernelRow.lean ====
/-
  One block of the kernel, row by row.

  The kernel works on a block of 5000 consecutive nodes at a time: it loads the block's aggregated messages and features, the
  weight matrices and the bias, scale and shift rows, and leaves in the output block, at row p and lane q, a number that
  depends on row p of the two loaded blocks alone. This module reads that number: it is the node update of
  Proof/NodeUpdate.lean applied to row p.

  The three products are matrix products into a zero accumulator, so each entry is the plain sum over the contracted
  coordinate; a bias row is broadcast over the 5000 rows; the maximum with the broadcast zero is relu. The mean of a row is
  the lane sum of the row divided by 128, kept as a one-lane column and broadcast back over the lanes, and the variance is
  the same statistic of the squared centred row.
-/
import proofs.«130851_j26474178413324_2_alg».proof.Proof.Gen.KernelIdeal.Value
import proofs.«130851_j26474178413324_2_alg».proof.Proof.NodeUpdate
import proofs.«130851_j26474178413324_2_alg».proof.Proof.LibRowStat
import proofs.«130851_j26474178413324_2_alg».proof.Proof.LibKeepdims
import proofs.«130851_j26474178413324_2_alg».proof.Proof.LibMatmulPlain
import Idealize.ShloMosaic.Lib.ValueLayout
import Idealize.ShloMosaic.Lib.ValueIdx

noncomputable section

namespace Cert.KernelIdeal.RowValue

open Cert.KernelIdeal Cert.KernelIdeal.Gen Cert.KernelIdeal.Value Idealize.ShloMosaic Idealize.ShloMosaic.ValueIdx Cert.NodeUpdate

/-- Row p of a 5000 × 128 block. -/
def rowOf (P : S5000x128.Idx → EReal) (p : Fin 5000) : Row := fun k => P (ix2 p k)
/-- A 128 × 128 block as a matrix. -/
def matOf (P : S128x128.Idx → EReal) : Mat := fun k c => P (ix2 k c)
/-- The one row of a 1 × 128 block. -/
def vecOf (P : S1x128.Idx → EReal) : Row := fun c => P (ix2 (0 : Fin 1) c)

/-! ## The three layers -/

/-- A block product into the zero accumulator, at row p and lane c: the sum over the contracted coordinate k of the left
    block at (p, k) times the right block at (k, c). -/
theorem product_apply {φ₁ φ₂ : FTy} (u : FVec Ideal S5000x128 φ₁) (W : FVec Ideal S128x128 φ₂) (p : Fin 5000) (c : Fin 128) :
    matmul dot_S5000x128_S128x128_S5000x128_1_0_0_1_n_n none u W (constant (F := Ideal) S5000x128 .f32 0x00000000#32) (ix2 p c)
      = ∑ k : Fin 128, u (ix2 p k) * W (ix2 k c) :=
  Cert.LibMatmulPlain.matmul_plain_zero_apply none u W p c

/-- A product into the zero accumulator plus a broadcast bias row, read along row p: u·W + b of that row. -/
theorem rowOf_affine {φ₁ φ₂ : FTy} (u : FVec Ideal S5000x128 φ₁) (W : FVec Ideal S128x128 φ₂) (b : FVec Ideal S1x128 .f32)
    (p : Fin 5000) :
    rowOf (addf (matmul dot_S5000x128_S128x128_S5000x128_1_0_0_1_n_n none u W (constant (F := Ideal) S5000x128 .f32 0x00000000#32))
        (broadcastTo S5000x128 b broadcasts_S1x128_S5000x128)) p
      = affine (rowOf u p) (matOf W) (vecOf b) := by
  funext c
  show matmul dot_S5000x128_S128x128_S5000x128_1_0_0_1_n_n none u W (constant (F := Ideal) S5000x128 .f32 0x00000000#32) (ix2 p c)
      + broadcastTo S5000x128 b broadcasts_S1x128_S5000x128 (ix2 p c) = _
  rw [product_apply u W p c, broadcastTo_1b_ab_apply]
  rfl

/-- The maximum with the broadcast zero, read along row p, is relu of that row (a change of format changes nothing). -/
theorem rowOf_relu (X : FVec Ideal S5000x128 .f32) (p : Fin 5000) :
    rowOf (truncf .bf16 (maximumf X (broadcast S5000x128 (Scalar.ofBits (F := Ideal) .f32 0x00000000#32))) bitsLt_bf16_f32) p
      = relu (rowOf X p) := rfl

/-- The first layer's two products and bias, read along row p. -/
theorem rowOf_first (h : FVec Ideal S5000x128 .bf16) (x : FVec Ideal S5000x128 .f32) (A B : FVec Ideal S128x128 .bf16)
    (b : FVec Ideal S1x128 .f32) (p : Fin 5000) :
    relu (rowOf (addf (addf
        (matmul dot_S5000x128_S128x128_S5000x128_1_0_0_1_n_n none h A (constant (F := Ideal) S5000x128 .f32 0x00000000#32))
        (matmul dot_S5000x128_S128x128_S5000x128_1_0_0_1_n_n none (truncf .bf16 x bitsLt_bf16_f32) B (constant (F := Ideal) S5000x128 .f32 0x00000000#32)))
        (broadcastTo S5000x128 b broadcasts_S1x128_S5000x128)) p)
      = firstLayer (rowOf h p) (rowOf x p) (matOf A) (matOf B) (vecOf b) := by
  funext c
  show max ((matmul dot_S5000x128_S128x128_S5000x128_1_0_0_1_n_n none h A (constant (F := Ideal) S5000x128 .f32 0x00000000#32) (ix2 p c)
      + matmul dot_S5000x128_S128x128_S5000x128_1_0_0_1_n_n none (truncf .bf16 x bitsLt_bf16_f32) B (constant (F := Ideal) S5000x128 .f32 0x00000000#32) (ix2 p c))
      + broadcastTo S5000x128 b broadcasts_S1x128_S5000x128 (ix2 p c)) zeroWord = _
  rw [product_apply h A p c, product_apply (truncf .bf16 x bitsLt_bf16_f32) B p c, broadcastTo_1b_ab_apply]
  rfl

/-- The value before the normalisation, read along row p: the three layers of that row. -/
theorem rowOf_layers (P0 : Vec Ideal S5000x128 .f32) (P1 : Vec Ideal S5000x128 .bf16) (P2 P3 : Vec Ideal S128x128 .bf16)
    (P4 : Vec Ideal S1x128 .f32) (P5 : Vec Ideal S128x128 .bf16) (P6 : Vec Ideal S1x128 .f32) (P7 : Vec Ideal S128x128 .bf16)
    (P8 : Vec Ideal S1x128 .f32) (p : Fin 5000) :
    rowOf (k0_pay2 P0 P1 P2 P3 P4 P5 P6 P7 P8) p
      = hidden (rowOf P1 p) (rowOf P0 p) (matOf P2) (matOf P3) (vecOf P4) (matOf P5) (vecOf P6) (matOf P7) (vecOf P8) := by
  unfold k0_pay2
  simp only [shapeCast_self]
  rw [rowOf_affine, rowOf_relu, rowOf_affine, rowOf_relu, rowOf_first]
  rfl

/-! ## The row statistics -/

/-- The lane sums of a block. -/
abbrev laneSum (u : FVec Ideal S5000x128 .f32) : FVec Ideal S5000 .f32 :=
  multiReduction .add [1] S5000 u 0x00000000#32 reduces_S5000x128_S5000 (.inl rfl) rfl

/-- Each row's mean, spread over the row's lanes. -/
abbrev meanCol (u : FVec Ideal S5000x128 .f32) : FVec Ideal S5000x128 .f32 :=
  broadcastTo S5000x128 (divf (shapeCast S5000x1 (laneSum u) shapeCasts_S5000_S5000x1)
    (broadcast S5000x1 (Scalar.ofBits (F := Ideal) .f32 0x43000000#32))) broadcasts_S5000x1_S5000x128

theorem laneSum_apply (u : FVec Ideal S5000x128 .f32) (p : Fin 5000) : laneSum u (ix1 p) = ∑ c : Fin 128, u (ix2 p c) :=
  Cert.LibRowStat.sum_lanes_apply u _ _ _ _ p

theorem meanCol_apply (u : FVec Ideal S5000x128 .f32) (p : Fin 5000) (q : Fin 128) :
    meanCol u (ix2 p q) = mean (rowOf u p) := by
  refine (Cert.LibRowStat.broadcastTo_a1_ab_apply _ _ p q).trans ?_
  show Ideal.div (shapeCast S5000x1 (laneSum u) shapeCasts_S5000_S5000x1 (ix2 p (0 : Fin 1))) widthWord = _
  rw [Cert.LibKeepdims.shapeCast_a_a1_apply, laneSum_apply]
  rfl

theorem centered_apply (u : FVec Ideal S5000x128 .f32) (p : Fin 5000) (q : Fin 128) :
    subf u (meanCol u) (ix2 p q) = centered (rowOf u p) q := by
  show u (ix2 p q) - meanCol u (ix2 p q) = _
  rw [meanCol_apply]
  rfl

theorem squares_apply (u : FVec Ideal S5000x128 .f32) (p : Fin 5000) :
    laneSum (mulf (subf u (meanCol u)) (subf u (meanCol u))) (ix1 p)
      = ∑ c : Fin 128, centered (rowOf u p) c * centered (rowOf u p) c := by
  rw [laneSum_apply]
  refine Finset.sum_congr rfl fun c _ => ?_
  show subf u (meanCol u) (ix2 p c) * subf u (meanCol u) (ix2 p c) = _
  rw [centered_apply]

/-- The normalisation, scale, shift and residual of a block u with residual x, at (p, q). -/
theorem norm_apply (u x : FVec Ideal S5000x128 .f32) (g be : FVec Ideal S1x128 .f32) (p : Fin 5000) (q : Fin 128) :
    FloatOps.addf (FloatOps.addf (FloatOps.mulf (FloatOps.mulf
        (FloatOps.subf (u (ix2 p q)) (FloatOps.divf (laneSum u (ix1 p)) (Scalar.ofBits (F := Ideal) .f32 0x43000000#32)))
        (FloatOps.rsqrt (FloatOps.addf (FloatOps.divf (laneSum (mulf (subf u (meanCol u)) (subf u (meanCol u))) (ix1 p))
          (Scalar.ofBits (F := Ideal) .f32 0x43000000#32)) (Scalar.ofBits (F := Ideal) .f32 0x3727C5AC#32))))
        (g (ix2 (0 : Fin 1) q))) (be (ix2 (0 : Fin 1) q))) (x (ix2 p q))
      = normalize (rowOf u p) (vecOf g) (vecOf be) q + x (ix2 p q) := by
  rw [squares_apply, laneSum_apply]
  rfl

/-! ## The block -/

/-- What a grid point leaves in the output block, at row p and lane q: the update of row p. -/
theorem block_entry (P0 : Vec Ideal S5000x128 .f32) (P1 : Vec Ideal S5000x128 .bf16) (P2 P3 : Vec Ideal S128x128 .bf16)
    (P4 : Vec Ideal S1x128 .f32) (P5 : Vec Ideal S128x128 .bf16) (P6 : Vec Ideal S1x128 .f32) (P7 : Vec Ideal S128x128 .bf16)
    (P8 P9 P10 : Vec Ideal S1x128 .f32) (p : Fin 5000) (q : Fin 128) :
    E11 P0 P1 P2 P3 P4 P5 P6 P7 P8 P9 P10 (ix2 p q)
      = update (rowOf P1 p) (rowOf P0 p) (matOf P2) (matOf P3) (vecOf P4) (matOf P5) (vecOf P6) (matOf P7) (vecOf P8)
          (vecOf P9) (vecOf P10) q := by
  have i0 : ix11_0 (ix2 p q : S5000x128.Idx) = ix2 p q := by
    funext a; apply Fin.ext; match a with | ⟨0, _⟩ => rfl | ⟨1, _⟩ => rfl
  have i1 : ix11_1 (ix2 p q : S5000x128.Idx) = ix1 p := by
    funext a; apply Fin.ext; match a with | ⟨0, _⟩ => rfl
  have i2 : ix11_2 (ix2 p q : S5000x128.Idx) = ix1 p := by
    funext a; apply Fin.ext; match a with | ⟨0, _⟩ => rfl
  have i3 : ix11_3 (ix2 p q : S5000x128.Idx) = ix2 (0 : Fin 1) q := by
    funext a; apply Fin.ext; match a with | ⟨0, _⟩ => rfl | ⟨1, _⟩ => rfl
  have i4 : ix11_4 (ix2 p q : S5000x128.Idx) = ix2 (0 : Fin 1) q := by
    funext a; apply Fin.ext; match a with | ⟨0, _⟩ => rfl | ⟨1, _⟩ => rfl
  have i5 : ix11_5 (ix2 p q : S5000x128.Idx) = ix2 p q := by
    funext a; apply Fin.ext; match a with | ⟨0, _⟩ => rfl | ⟨1, _⟩ => rfl
  have h := norm_apply (k0_pay2 P0 P1 P2 P3 P4 P5 P6 P7 P8) P0 P9 P10 p q
  rw [rowOf_layers] at h
  unfold E11
  rw [i0, i1, i2, i3, i4, i5]
  exact h

end Cert.KernelIdeal.RowValue

end
-- ==== Proof.NodeArray.lean ====
/-
  The whole array of node updates.

  There are 100000 nodes. Row r of the result is the update (Proof/NodeUpdate.lean) of row r of the aggregated messages H and
  row r of the features X; the first layer's two matrices are the upper and the lower 128 rows of the one 256 × 128 weight
  array, and each bias, scale and shift is a vector of 128 numbers.
-/
import proofs.«130851_j26474178413324_2_alg».proof.Proof.NodeUpdate
import Idealize.ShloMosaic.Lib.ValueIdx

noncomputable section

namespace Cert.NodeUpdate

open Idealize.ShloMosaic Idealize.ShloMosaic.ValueIdx

/-- Row r of a 100000 × 128 array. -/
def nodeRow (Y : (⟨2, ![100000, 128]⟩ : Shape).Idx → EReal) (r : Fin 100000) : Row := fun k => Y (ix2 r k)
/-- A 128 × 128 array as a matrix. -/
def square (W : (⟨2, ![128, 128]⟩ : Shape).Idx → EReal) : Mat := fun k c => W (ix2 k c)
/-- A 128-vector as a row. -/
def vector (b : (⟨1, ![128]⟩ : Shape).Idx → EReal) : Row := fun c => b (ix1 c)
/-- The upper 128 rows of a 256 × 128 array. -/
def upperHalf (W : (⟨2, ![256, 128]⟩ : Shape).Idx → EReal) : Mat :=
  fun k c => W (ix2 (⟨k.val, by have := k.isLt; omega⟩ : Fin 256) c)
/-- The lower 128 rows of a 256 × 128 array. -/
def lowerHalf (W : (⟨2, ![256, 128]⟩ : Shape).Idx → EReal) : Mat :=
  fun k c => W (ix2 (⟨128 + k.val, by have := k.isLt; omega⟩ : Fin 256) c)

/-- Every node's update, as one array. -/
def arrayUpdate (H X : (⟨2, ![100000, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (W3 : (⟨2, ![128, 128]⟩ : Shape).Idx → EReal)
    (b3 g be : (⟨1, ![128]⟩ : Shape).Idx → EReal) : (⟨2, ![100000, 128]⟩ : Shape).Idx → EReal :=
  fun i => update (nodeRow H (i 0)) (nodeRow X (i 0)) (upperHalf W1) (lowerHalf W1) (vector b1) (square W2) (vector b2)
    (square W3) (vector b3) (vector g) (vector be) (i 1)

end Cert.NodeUpdate

end
-- ==== Proof.HostArrays.lean ====
/-
  What the kernel's windows find in their arrays.

  Before the kernel is launched the program sums the edge features onto their destination nodes (a scatter-add into an array
  of zeros), cuts the 256 × 128 first-layer weights into their upper and lower 128 rows, and lays each bias, scale and shift
  vector out as a 1 × 128 row. The changes of number format in between change nothing at the ideal values. This module reads
  each of those arrays at an index, in terms of the program's arguments.
-/
import proofs.«130851_j26474178413324_2_alg».proof.Proof.Gen.KernelIdeal.Frame
import proofs.«130851_j26474178413324_2_alg».proof.Proof.KernelRow
import proofs.«130851_j26474178413324_2_alg».proof.Proof.NodeArray
import Idealize.ShloMosaic.Lib.StableHlo.Run
import Idealize.ShloMosaic.Lib.ValueLayout
import Idealize.ShloMosaic.Lib.ValueIdx

noncomputable section

namespace Cert.KernelIdeal.HostValue

open Cert.KernelIdeal Cert.KernelIdeal.Gen Cert.KernelIdeal.RowValue Idealize.ShloMosaic Idealize.ShloMosaic.TcCoe
  Idealize.ShloMosaic.ValueIdx Idealize.ShloMosaic.StableHlo Idealize.SL.Sem Cert.NodeUpdate

variable (m : (ℓ : Loc nD τ sig) → Buf (Elt Ideal) ℓ)

/-- The aggregated messages: every edge's features added onto the edge's destination node, from zeros. -/
def messages (c : Dev nD) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (m ((c : Thread nD τ).loc main_arg2)))
    (m ((c : Thread nD τ).loc main_arg1))

/-- A change of number format changes nothing at the ideal values. -/
theorem truncf_id {s : Shape} (X : s.Idx → EReal) : truncf (F := Ideal) (φ := .f32) .bf16 X bitsLt_bf16_f32 = X := rfl

/-- Two scatter-adds are the same array when their dimension numbers, starting arrays, index arrays and updates are. -/
theorem scatterAdd_congr {s si u : Shape} {w : Nat} {φ : FTy} (d d' : ScatterDims s si u) (hd : d = d')
    (x x' : FVec Ideal s φ) (hx : x = x') (i i' : IVec si w) (hi : i = i') (upd upd' : FVec Ideal u φ) (hu : upd = upd') :
    Host.scatterAdd d x i upd = Host.scatterAdd d' x' i' upd' := by
  subst hd hx hi hu; rfl

theorem V_messages (c : Dev nD) : (V m c main_v3 : S100000x128.Idx → EReal) = messages m c := by
  dsimp only [Gen.V, Gen.hostOps0]; after_results
  unfold messages
  exact (truncf_id _).trans (scatterAdd_congr _ _ rfl _ _ rfl _ _ rfl _ _ rfl)

-- Everything below depends on the aggregated messages as one array H only: no property of its entries is used.
attribute [irreducible] messages

theorem V_upper (c : Dev nD) : (V m c main_v5 : S128x128.Idx → EReal)
    = extractStridedSlice S128x128 ![0, 0] (m ((c : Thread nD τ).loc main_arg3)) slices_S256x128_S128x128_0_0 := by
  dsimp only [Gen.V, Gen.hostOps0]; after_results; rfl

theorem V_lower (c : Dev nD) : (V m c main_v7 : S128x128.Idx → EReal)
    = extractStridedSlice S128x128 ![128, 0] (m ((c : Thread nD τ).loc main_arg3)) slices_S256x128_S128x128_128_0 := by
  dsimp only [Gen.V, Gen.hostOps0]; after_results; rfl

theorem V_second (c : Dev nD) : (V m c main_v8 : S128x128.Idx → EReal) = m ((c : Thread nD τ).loc main_arg5) := by
  dsimp only [Gen.V, Gen.hostOps0]; after_results; rfl

theorem V_third (c : Dev nD) : (V m c main_v9 : S128x128.Idx → EReal) = m ((c : Thread nD τ).loc main_arg7) := by
  dsimp only [Gen.V, Gen.hostOps0]; after_results; rfl

theorem V_bias1 (c : Dev nD) : (V m c main_v10 : S1x128.Idx → EReal)
    = shapeCast S1x128 (m ((c : Thread nD τ).loc main_arg4)) shapeCasts_S128_S1x128 := by
  dsimp only [Gen.V, Gen.hostOps0]; after_results; rfl

theorem V_bias2 (c : Dev nD) : (V m c main_v11 : S1x128.Idx → EReal)
    = shapeCast S1x128 (m ((c : Thread nD τ).loc main_arg6)) shapeCasts_S128_S1x128 := by
  dsimp only [Gen.V, Gen.hostOps0]; after_results; rfl

theorem V_bias3 (c : Dev nD) : (V m c main_v12 : S1x128.Idx → EReal)
    = shapeCast S1x128 (m ((c : Thread nD τ).loc main_arg8)) shapeCasts_S128_S1x128 := by
  dsimp only [Gen.V, Gen.hostOps0]; after_results; rfl

theorem V_scale (c : Dev nD) : (V m c main_v13 : S1x128.Idx → EReal)
    = shapeCast S1x128 (m ((c : Thread nD τ).loc main_arg9)) shapeCasts_S128_S1x128 := by
  dsimp only [Gen.V, Gen.hostOps0]; after_results; rfl

theorem V_shift (c : Dev nD) : (V m c main_v14 : S1x128.Idx → EReal)
    = shapeCast S1x128 (m ((c : Thread nD τ).loc main_arg10)) shapeCasts_S128_S1x128 := by
  dsimp only [Gen.V, Gen.hostOps0]; after_results; rfl

/-- The upper cut, as a matrix, is the upper half of the weights. -/
theorem matOf_upper (W : S256x128.Idx → EReal) :
    matOf (extractStridedSlice S128x128 ![0, 0] W slices_S256x128_S128x128_0_0) = upperHalf W := by
  funext k c
  show extractStridedSlice S128x128 ![0, 0] W slices_S256x128_S128x128_0_0 (ix2 k c) = _
  rw [slice2_axis0_eq]
  exact congrArg W (funext fun a => Fin.ext (by match a with | ⟨0, _⟩ => exact Nat.zero_add _ | ⟨1, _⟩ => rfl))

/-- The lower cut, as a matrix, is the lower half of the weights. -/
theorem matOf_lower (W : S256x128.Idx → EReal) :
    matOf (extractStridedSlice S128x128 ![128, 0] W slices_S256x128_S128x128_128_0) = lowerHalf W := by
  funext k c
  show extractStridedSlice S128x128 ![128, 0] W slices_S256x128_S128x128_128_0 (ix2 k c) = _
  rw [slice2_axis0_eq]
  rfl

/-- A vector laid out as one row, read as that row, is the vector. -/
theorem vecOf_row (b : S128.Idx → EReal) : vecOf (shapeCast S1x128 b shapeCasts_S128_S1x128) = vector b := by
  funext c
  show shapeCast S1x128 b shapeCasts_S128_S1x128 (ix2 (0 : Fin 1) c) = _
  rw [shapeCast_a_1a_apply]
  rfl

end Cert.KernelIdeal.HostValue

end
-- ==== Proof.Blocks.lean ====
/-
  From the kernel's blocks to its result array.

  The kernel runs at twenty grid points. At point t it works on rows 5000·t to 5000·t + 4999: the aggregated messages' and the
  features' windows hold those rows, every weight, bias, scale and shift window holds its whole array, and the output window
  writes those rows back. Since a row of the result depends on the same row of the two inputs alone, what point t writes back
  is rows 5000·t … of the array of node updates (Proof/NodeArray.lean); the twenty blocks tile the 100000 rows, row r lying in
  block r / 5000, so after the run the result array is the array of node updates.
-/
import proofs.«130851_j26474178413324_2_alg».proof.Proof.Gen.KernelIdeal.Value
import proofs.«130851_j26474178413324_2_alg».proof.Proof.KernelRow
import proofs.«130851_j26474178413324_2_alg».proof.Proof.HostArrays
import proofs.«130851_j26474178413324_2_alg».proof.Proof.NodeArray
import Idealize.ShloMosaic.Lib.Pipeline.Value

noncomputable section

namespace Cert.KernelIdeal.ArrayValue

open Cert.KernelIdeal Cert.KernelIdeal.Gen Cert.KernelIdeal.Value Cert.KernelIdeal.RowValue Cert.KernelIdeal.HostValue
  Idealize.ShloMosaic Idealize.ShloMosaic.TcCoe Idealize.ShloMosaic.ValueIdx Idealize.SL.Sem Cert.NodeUpdate
open Idealize.ShloMosaic.Pipeline (Dat)

variable (m : (ℓ : Loc nD τ sig) → Buf (Elt Ideal) ℓ) (ρ : Dev nD → PrngReg)

/-- The array of node updates of the program's arguments. -/
def result (c : Dev nD) : S100000x128.Idx → EReal :=
  arrayUpdate (messages m c) (m ((c : Thread nD τ).loc main_arg0)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))

theorem hz : (![0, 0] : Fin 2 → Nat) = fun _ => 0 := funext fun a => by fin_cases a <;> rfl

/-! ## Where each window sits at a grid point -/

/-- The output window and the two row windows sit on block row t, lane block 0, at point t (decided over the twenty points). -/
theorem idx_rows : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The other windows never move (decided over the twenty points). -/
theorem idx_fixed : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The blocks, read back to the arrays -/

/-- Window 2 stays on its whole array at every point. -/
theorem whole2 (c : Dev nD) (t : Fin cfg0.N) : (iblk m c 2 t : S128x128.Idx → EReal) = V m c main_v5 := by
  have e := idx_fixed t
  funext y
  show V m c main_v5 (((cfg0.win 2).blk t).view.emb y) = V m c main_v5 y
  refine congrArg (V m c main_v5) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 stays on its whole array at every point. -/
theorem whole3 (c : Dev nD) (t : Fin cfg0.N) : (iblk m c 3 t : S128x128.Idx → EReal) = V m c main_v7 := by
  have e := idx_fixed t
  funext y
  show V m c main_v7 (((cfg0.win 3).blk t).view.emb y) = V m c main_v7 y
  refine congrArg (V m c main_v7) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stays on its whole array at every point. -/
theorem whole4 (c : Dev nD) (t : Fin cfg0.N) : (iblk m c 4 t : S1x128.Idx → EReal) = V m c main_v10 := by
  have e := idx_fixed t
  funext y
  show V m c main_v10 (((cfg0.win 4).blk t).view.emb y) = V m c main_v10 y
  refine congrArg (V m c main_v10) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 stays on its whole array at every point. -/
theorem whole5 (c : Dev nD) (t : Fin cfg0.N) : (iblk m c 5 t : S128x128.Idx → EReal) = V m c main_v8 := by
  have e := idx_fixed t
  funext y
  show V m c main_v8 (((cfg0.win 5).blk t).view.emb y) = V m c main_v8 y
  refine congrArg (V m c main_v8) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 stays on its whole array at every point. -/
theorem whole6 (c : Dev nD) (t : Fin cfg0.N) : (iblk m c 6 t : S1x128.Idx → EReal) = V m c main_v11 := by
  have e := idx_fixed t
  funext y
  show V m c main_v11 (((cfg0.win 6).blk t).view.emb y) = V m c main_v11 y
  refine congrArg (V m c main_v11) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 stays on its whole array at every point. -/
theorem whole7 (c : Dev nD) (t : Fin cfg0.N) : (iblk m c 7 t : S128x128.Idx → EReal) = V m c main_v9 := by
  have e := idx_fixed t
  funext y
  show V m c main_v9 (((cfg0.win 7).blk t).view.emb y) = V m c main_v9 y
  refine congrArg (V m c main_v9) ?_
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8 stays on its whole array at every point. -/
theorem whole8 (c : Dev nD) (t : Fin cfg0.N) : (iblk m c 8 t : S1x128.Idx → EReal) = V m c main_v12 := by
  have e := idx_fixed t
  funext y
  show V m c main_v12 (((cfg0.win 8).blk t).view.emb y) = V m c main_v12 y
  refine congrArg (V m c main_v12) ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9 stays on its whole array at every point. -/
theorem whole9 (c : Dev nD) (t : Fin cfg0.N) : (iblk m c 9 t : S1x128.Idx → EReal) = V m c main_v13 := by
  have e := idx_fixed t
  funext y
  show V m c main_v13 (((cfg0.win 9).blk t).view.emb y) = V m c main_v13 y
  refine congrArg (V m c main_v13) ?_
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10 stays on its whole array at every point. -/
theorem whole10 (c : Dev nD) (t : Fin cfg0.N) : (iblk m c 10 t : S1x128.Idx → EReal) = V m c main_v14 := by
  have e := idx_fixed t
  funext y
  show V m c main_v14 (((cfg0.win 10).blk t).view.emb y) = V m c main_v14 y
  refine congrArg (V m c main_v14) ?_
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Reading window 0's block at point t, at row `j 0` and lane k, reads the array at the row the output block's index `j` lies in. -/
theorem row_read0 (A : S100000x128.Idx → EReal) (t : Fin cfg0.N) (j : S5000x128.Idx) (k : Fin 128) :
    ((cfg0.win 0).blk t).view.read (Elt Ideal) A (ix2 (j 0) k) = A (ix2 ((((cfg0.win 11).blk t).view.emb j) 0) k) := by
  have e := idx_rows t
  show A (((cfg0.win 0).blk t).view.emb (ix2 (j 0) k)) = _
  refine congrArg A ?_
  funext a; apply Fin.ext
  match a with
  | ⟨0, _⟩ => show win0_0.index t (0 : Fin 2) * 5000 + 1 * (j 0).val = win0_11.index t (0 : Fin 2) * 5000 + 1 * (j 0).val; omega
  | ⟨1, _⟩ => show win0_0.index t (1 : Fin 2) * 128 + 1 * k.val = k.val; omega

/-- Reading window 1's block at point t, at row `j 0` and lane k, reads the array at the row the output block's index `j` lies in. -/
theorem row_read1 (A : S100000x128.Idx → EReal) (t : Fin cfg0.N) (j : S5000x128.Idx) (k : Fin 128) :
    ((cfg0.win 1).blk t).view.read (Elt Ideal) A (ix2 (j 0) k) = A (ix2 ((((cfg0.win 11).blk t).view.emb j) 0) k) := by
  have e := idx_rows t
  show A (((cfg0.win 1).blk t).view.emb (ix2 (j 0) k)) = _
  refine congrArg A ?_
  funext a; apply Fin.ext
  match a with
  | ⟨0, _⟩ => show win0_1.index t (0 : Fin 2) * 5000 + 1 * (j 0).val = win0_11.index t (0 : Fin 2) * 5000 + 1 * (j 0).val; omega
  | ⟨1, _⟩ => show win0_1.index t (1 : Fin 2) * 128 + 1 * k.val = k.val; omega

/-- Row p of the messages' block at point t is the aggregated messages' row under it. -/
theorem rowOf_messages (c : Dev nD) (t : Fin cfg0.N) (j : S5000x128.Idx) :
    rowOf (iblk m c 0 t) (j 0) = nodeRow (messages m c) ((((cfg0.win 11).blk t).view.emb j) 0) := by
  funext k
  unfold rowOf iblk
  refine (row_read0 _ t j k).trans ?_
  exact congrFun (V_messages m c) _

/-- Row p of the features' block at point t is the features' row under it. -/
theorem rowOf_features (c : Dev nD) (t : Fin cfg0.N) (j : S5000x128.Idx) :
    rowOf (iblk m c 1 t) (j 0) = nodeRow (m ((c : Thread nD τ).loc main_arg0)) ((((cfg0.win 11).blk t).view.emb j) 0) := by
  funext k
  unfold rowOf iblk
  refine (row_read1 _ t j k).trans ?_
  exact congrFun (V_main_arg0 m c) _

theorem matOf_blk2 (c : Dev nD) (t : Fin cfg0.N) : matOf (iblk m c 2 t) = upperHalf (m ((c : Thread nD τ).loc main_arg3)) :=
  (congrArg matOf (whole2 m c t)).trans ((congrArg matOf (V_upper m c)).trans (matOf_upper _))
theorem matOf_blk3 (c : Dev nD) (t : Fin cfg0.N) : matOf (iblk m c 3 t) = lowerHalf (m ((c : Thread nD τ).loc main_arg3)) :=
  (congrArg matOf (whole3 m c t)).trans ((congrArg matOf (V_lower m c)).trans (matOf_lower _))
theorem vecOf_blk4 (c : Dev nD) (t : Fin cfg0.N) : vecOf (iblk m c 4 t) = vector (m ((c : Thread nD τ).loc main_arg4)) :=
  (congrArg vecOf (whole4 m c t)).trans ((congrArg vecOf (V_bias1 m c)).trans (vecOf_row _))
theorem matOf_blk5 (c : Dev nD) (t : Fin cfg0.N) : matOf (iblk m c 5 t) = square (m ((c : Thread nD τ).loc main_arg5)) :=
  (congrArg matOf (whole5 m c t)).trans (congrArg matOf (V_second m c))
theorem vecOf_blk6 (c : Dev nD) (t : Fin cfg0.N) : vecOf (iblk m c 6 t) = vector (m ((c : Thread nD τ).loc main_arg6)) :=
  (congrArg vecOf (whole6 m c t)).trans ((congrArg vecOf (V_bias2 m c)).trans (vecOf_row _))
theorem matOf_blk7 (c : Dev nD) (t : Fin cfg0.N) : matOf (iblk m c 7 t) = square (m ((c : Thread nD τ).loc main_arg7)) :=
  (congrArg matOf (whole7 m c t)).trans (congrArg matOf (V_third m c))
theorem vecOf_blk8 (c : Dev nD) (t : Fin cfg0.N) : vecOf (iblk m c 8 t) = vector (m ((c : Thread nD τ).loc main_arg8)) :=
  (congrArg vecOf (whole8 m c t)).trans ((congrArg vecOf (V_bias3 m c)).trans (vecOf_row _))
theorem vecOf_blk9 (c : Dev nD) (t : Fin cfg0.N) : vecOf (iblk m c 9 t) = vector (m ((c : Thread nD τ).loc main_arg9)) :=
  (congrArg vecOf (whole9 m c t)).trans ((congrArg vecOf (V_scale m c)).trans (vecOf_row _))
theorem vecOf_blk10 (c : Dev nD) (t : Fin cfg0.N) : vecOf (iblk m c 10 t) = vector (m ((c : Thread nD τ).loc main_arg10)) :=
  (congrArg vecOf (whole10 m c t)).trans ((congrArg vecOf (V_shift m c)).trans (vecOf_row _))

/-! ## What a point writes back -/

/-- The block a point leaves, at any block index: the update of the index's row. -/
theorem block_value (P0 : Vec Ideal S5000x128 .f32) (P1 : Vec Ideal S5000x128 .bf16) (P2 P3 : Vec Ideal S128x128 .bf16)
    (P4 : Vec Ideal S1x128 .f32) (P5 : Vec Ideal S128x128 .bf16) (P6 : Vec Ideal S1x128 .f32) (P7 : Vec Ideal S128x128 .bf16)
    (P8 P9 P10 : Vec Ideal S1x128 .f32) (y : S5000x128.Idx) :
    E11 P0 P1 P2 P3 P4 P5 P6 P7 P8 P9 P10 y
      = update (rowOf P1 (y 0)) (rowOf P0 (y 0)) (matOf P2) (matOf P3) (vecOf P4) (matOf P5) (vecOf P6) (matOf P7) (vecOf P8)
          (vecOf P9) (vecOf P10) (y 1) := by
  obtain ⟨p, q, rfl⟩ : ∃ (p : Fin 5000) (q : Fin 128), y = ix2 p q := ⟨y 0, y 1, eq_ix2 y⟩
  exact block_entry P0 P1 P2 P3 P4 P5 P6 P7 P8 P9 P10 p q

/-- Reading the output window's block at point t reads the array at the index under the block index. -/
theorem read_out (A : S100000x128.Idx → EReal) (t : Fin cfg0.N) (j : S5000x128.Idx) :
    ((cfg0.win 11).blk t).view.read (Elt Ideal) A j = A (((cfg0.win 11).blk t).view.emb j) := rfl

/-- What point t writes back is block t of the array of node updates. -/
theorem flushed_eq (c : Dev nD) (t : Fin cfg0.N) :
    (dats m 0 c).flushed 11 t = ((cfg0.win 11).blk t).view.read (Elt Ideal) (result m c) := by
  rw [Value.flushed11]
  unfold out0_11
  simp only [View.ld_unit_zero (S := S5000x128) hz, View.ld_unit_zero (S := S128x128) hz, View.ld_unit_zero (S := S1x128) hz]
  funext j
  refine Eq.trans ?_ (read_out (result m c) t j).symm
  refine (canon11_eq (iblk m c 1 t) (iblk m c 0 t) (iblk m c 2 t) (iblk m c 3 t) (iblk m c 4 t) (iblk m c 5 t) (iblk m c 6 t) (iblk m c 7 t) (iblk m c 8 t) (iblk m c 9 t) (iblk m c 10 t) j).trans ?_
  refine (block_value (iblk m c 1 t) (iblk m c 0 t) (iblk m c 2 t) (iblk m c 3 t) (iblk m c 4 t) (iblk m c 5 t) (iblk m c 6 t) (iblk m c 7 t) (iblk m c 8 t) (iblk m c 9 t) (iblk m c 10 t) j).trans ?_
  rw [rowOf_messages m c t j, rowOf_features m c t j, matOf_blk2 m c t, matOf_blk3 m c t, vecOf_blk4 m c t, matOf_blk5 m c t,
    vecOf_blk6 m c t, matOf_blk7 m c t, vecOf_blk8 m c t, vecOf_blk9 m c t, vecOf_blk10 m c t]
  have e := idx_rows t
  have hl : (j 1 : Fin 128) = (((cfg0.win 11).blk t).view.emb j) 1 :=
    Fin.ext (by show (j 1).val = win0_11.index t (1 : Fin 2) * 128 + 1 * (j 1).val; omega)
  unfold result arrayUpdate
  rw [← hl]

/-! ## The blocks tile the array -/

/-- An index of the array is in point t's block iff each coordinate is in the block's range on its axis. -/
theorem mem_blk (t : Fin cfg0.N) (i : S100000x128.Idx) :
    i ∈ ((cfg0.win 11).blk t).view.set ↔ ∀ a : Fin 2, win0_11.index t a * S5000x128.size a ≤ (i a).val
      ∧ (i a).val < win0_11.index t a * S5000x128.size a + S5000x128.size a := by
  show i ∈ ((View.whole main_v15).slice (win0_11.rect t)).set ↔ _
  rw [View.set_slice_whole, Rect.mem_set_unit]
  exact Iff.rfl

/-- Row r lies in the block of point r / 5000. -/
theorem cover (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 20 := N_0
  have hlt : (i 0).val / 5000 < cfg0.N := by omega
  refine ⟨⟨(i 0).val / 5000, hlt⟩, flush0_11 _, ?_⟩
  have e := idx_rows ⟨(i 0).val / 5000, hlt⟩
  have h0 : win0_11.index ⟨(i 0).val / 5000, hlt⟩ (0 : Fin 2) = (i 0).val / 5000 := e.1
  have h1 : win0_11.index ⟨(i 0).val / 5000, hlt⟩ (1 : Fin 2) = 0 := e.2.1
  rw [mem_blk]
  intro a
  match a with
  | ⟨0, _⟩ =>
    show win0_11.index ⟨(i 0).val / 5000, hlt⟩ (0 : Fin 2) * 5000 ≤ (i 0).val
      ∧ (i 0).val < win0_11.index ⟨(i 0).val / 5000, hlt⟩ (0 : Fin 2) * 5000 + 5000
    omega
  | ⟨1, _⟩ =>
    show win0_11.index ⟨(i 0).val / 5000, hlt⟩ (1 : Fin 2) * 128 ≤ (i 1).val
      ∧ (i 1).val < win0_11.index ⟨(i 0).val / 5000, hlt⟩ (1 : Fin 2) * 128 + 128
    omega

/-! ## The run -/

/-- After the run the result array is the array of node updates. -/
theorem final (c : Dev nD) : (dats m 0 c).arrAt 11 cfg0.N = result m c :=
  (dats m 0 c).arrAt_eq_of_cover 11 (result m c) (fun t _ => flushed_eq m c t) cover

/-- Every weakly fair execution of the kernel's program ends with the result array at the array of node updates and the
    arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.RefRow.lean ====
/-
  The reference, row by row.

  The reference sums the edge features onto their destination nodes, joins each node's aggregated messages and features into
  one vector of 256 numbers, and applies to it: a product with the 256 × 128 weights plus a bias, relu; a 128 × 128 product
  plus a bias, relu; a third product plus a bias; layer normalisation over the 128 lanes with scale and shift; and adds the
  node's features. Every step acts within a row, so row r of its result depends on row r of the aggregated messages and of
  the features alone. This module reads the reference's stages at an index and finds the node update of
  Proof/NodeUpdate.lean: the product over the joined vector is the sum over the messages' half plus the sum over the
  features' half, and a sum the reference starts from the number zero is that sum.
-/
import proofs.«130851_j26474178413324_2_alg».proof.Proof.Gen.ReferenceIdeal.Read
import proofs.«130851_j26474178413324_2_alg».proof.Proof.NodeArray
import Idealize.ShloMosaic.Lib.Pipeline.Value
import Idealize.ShloMosaic.Lib.ValueIdx
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx
  Cert.NodeUpdate

/-- Two indices of a literal shape with the same coordinates. -/
local macro "same_coordinates" : tactic =>
  `(tactic| (funext a; apply Fin.ext; first
    | (match a with | ⟨0, _⟩ => rfl | ⟨1, _⟩ => rfl)
    | (match a with | ⟨0, _⟩ => rfl)))

/-! ## Where each stage reads its operand -/

section indices
variable (r : Fin 100000) (q : Fin 128)

theorem e6 : idx_main_v6 (ix2 r q : S100000x128.Idx) = ix2 (0 : Fin 1) q := by same_coordinates
theorem e5 : idx_main_v5 (ix2 (0 : Fin 1) q : S1x128.Idx) = ix1 q := by same_coordinates
theorem e11 : idx_main_v11 (ix2 r q : S100000x128.Idx) = ix2 (0 : Fin 1) q := by same_coordinates
theorem e10 : idx_main_v10 (ix2 (0 : Fin 1) q : S1x128.Idx) = ix1 q := by same_coordinates
theorem e16 : idx_main_v16 (ix2 r q : S100000x128.Idx) = ix2 (0 : Fin 1) q := by same_coordinates
theorem e15 : idx_main_v15 (ix2 (0 : Fin 1) q : S1x128.Idx) = ix1 q := by same_coordinates
theorem e37 : idx_main_v37 (ix2 r q : S100000x128.Idx) = ix2 (0 : Fin 1) q := by same_coordinates
theorem e36 : idx_main_v36 (ix2 (0 : Fin 1) q : S1x128.Idx) = ix1 q := by same_coordinates
theorem e40 : idx_main_v40 (ix2 r q : S100000x128.Idx) = ix2 (0 : Fin 1) q := by same_coordinates
theorem e39 : idx_main_v39 (ix2 (0 : Fin 1) q : S1x128.Idx) = ix1 q := by same_coordinates
theorem l4 (k : Fin 256) : lidx_main_v4 (ix2 r q : S100000x128.Idx) k = ix2 r k := by same_coordinates
theorem r4 (k : Fin 256) : ridx_main_v4 (ix2 r q : S100000x128.Idx) k = ix2 k q := by same_coordinates
theorem l9 (k : Fin 128) : lidx_main_v9 (ix2 r q : S100000x128.Idx) k = ix2 r k := by same_coordinates
theorem r9 (k : Fin 128) : ridx_main_v9 (ix2 r q : S100000x128.Idx) k = ix2 k q := by same_coordinates
theorem l14 (k : Fin 128) : lidx_main_v14 (ix2 r q : S100000x128.Idx) k = ix2 r k := by same_coordinates
theorem r14 (k : Fin 128) : ridx_main_v14 (ix2 r q : S100000x128.Idx) k = ix2 k q := by same_coordinates
theorem e18 (k : Fin 128) : idx_main_v18 (ix1 r : S100000.Idx) k = ix2 r k := by same_coordinates
theorem e25 (k : Fin 128) : idx_main_v25 (ix1 r : S100000.Idx) k = ix2 r k := by same_coordinates
theorem e19 : idx_main_v19 (ix2 r (0 : Fin 1) : S100000x1.Idx) = ix1 r := by same_coordinates
theorem e26 : idx_main_v26 (ix2 r (0 : Fin 1) : S100000x1.Idx) = ix1 r := by same_coordinates
theorem e22 : idx_main_v22 (ix2 r q : S100000x128.Idx) = ix2 r (0 : Fin 1) := by same_coordinates
theorem e29 : idx_main_v29 (ix2 r q : S100000x128.Idx) = ix2 r (0 : Fin 1) := by same_coordinates
theorem e34 : idx_main_v34 (ix2 r q : S100000x128.Idx) = ix2 r (0 : Fin 1) := by same_coordinates

end indices

variable (x0 : (⟨S100000x128, .f32⟩ : BufTy).Contents (Elt Ideal)) (x1 : (⟨S1600000x128, .f32⟩ : BufTy).Contents (Elt Ideal))
  (x2 : (⟨S1600000, .i32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 x9 x10 : (⟨S128, .f32⟩ : BufTy).Contents (Elt Ideal))

/-! ## The joined vector -/

/-- The first 128 coordinates of a node's joined vector are its aggregated messages. -/
theorem joined_left (r : Fin 100000) (k : Fin 128) :
    val_main_v3 (F := Ideal) x0 x1 x2 (ix2 r (⟨k.val, by have := k.isLt; omega⟩ : Fin 256))
      = val_main_v2 (F := Ideal) x1 x2 (ix2 r k) := by
  unfold val_main_v3
  exact concatenate_pair_apply_left (1 : Fin S100000x256.rank) (val_main_v2 (F := Ideal) x1 x2) x0
    concatenates_S100000x128_S100000x128_S100000x256_d1
    (ix2 r (⟨k.val, by have := k.isLt; omega⟩ : Fin 256) : S100000x256.Idx) rfl (ix2 r k : S100000x128.Idx) (fun b => by
    match b with
    | ⟨0, _⟩ => rfl
    | ⟨1, _⟩ => rfl)

/-- The last 128 coordinates of a node's joined vector are its features. -/
theorem joined_right (r : Fin 100000) (k : Fin 128) :
    val_main_v3 (F := Ideal) x0 x1 x2 (ix2 r (⟨128 + k.val, by have := k.isLt; omega⟩ : Fin 256)) = x0 (ix2 r k) := by
  unfold val_main_v3
  exact concatenate_pair_apply_right (1 : Fin S100000x256.rank) (val_main_v2 (F := Ideal) x1 x2) x0
    concatenates_S100000x128_S100000x128_S100000x256_d1
    (ix2 r (⟨128 + k.val, by have := k.isLt; omega⟩ : Fin 256) : S100000x256.Idx) rfl rfl (ix2 r k : S100000x128.Idx)
    (fun b hb => by
      match b, hb with
      | ⟨0, _⟩, _ => rfl
      | ⟨1, _⟩, hb => exact absurd rfl hb)
    (by show k.val + 128 = 128 + k.val; omega)

/-! ## The three layers -/

/-- The product over the joined vector is the messages' product with the upper half of the weights plus the features'
    product with the lower half. -/
theorem joined_product (r : Fin 100000) (c : Fin 128) :
    val_main_v4 (F := Ideal) x0 x1 x2 x3 (ix2 r c)
      = (∑ k, nodeRow (val_main_v2 (F := Ideal) x1 x2) r k * upperHalf x3 k c) + ∑ k, nodeRow x0 r k * lowerHalf x3 k c := by
  rw [val_main_v4_apply, sum_halves]
  refine congrArg₂ (· + ·) (Finset.sum_congr rfl fun k _ => ?_) (Finset.sum_congr rfl fun k _ => ?_)
  · rw [l4, r4, joined_left]; rfl
  · rw [l4, r4, joined_right]; rfl

theorem row_first (r : Fin 100000) :
    nodeRow (val_main_v8 (F := Ideal) x0 x1 x2 x3 x4) r
      = firstLayer (nodeRow (val_main_v2 (F := Ideal) x1 x2) r) (nodeRow x0 r) (upperHalf x3) (lowerHalf x3) (vector x4) := by
  funext c
  unfold nodeRow
  rw [val_main_v8_apply, val_main_v7_apply, joined_product, val_main_v6_apply, val_main_v5_apply, e6, e5,
    val_main_call0_v0_apply, val_main_call0_cst_apply]
  rfl

theorem row_second (r : Fin 100000) :
    nodeRow (val_main_v13 (F := Ideal) x0 x1 x2 x3 x4 x5 x6) r
      = relu (affine (nodeRow (val_main_v8 (F := Ideal) x0 x1 x2 x3 x4) r) (square x5) (vector x6)) := by
  funext c
  unfold nodeRow
  rw [val_main_v13_apply, val_main_v12_apply, val_main_v9_apply, val_main_v11_apply, val_main_v10_apply, e11, e10,
    val_main_call1_v0_apply, val_main_call1_cst_apply]
  simp only [l9, r9]
  rfl

theorem row_third (r : Fin 100000) :
    nodeRow (val_main_v17 (F := Ideal) x0 x1 x2 x3 x4 x5 x6 x7 x8) r
      = affine (nodeRow (val_main_v13 (F := Ideal) x0 x1 x2 x3 x4 x5 x6) r) (square x7) (vector x8) := by
  funext c
  unfold nodeRow
  rw [val_main_v17_apply, val_main_v14_apply, val_main_v16_apply, val_main_v15_apply, e16, e15]
  simp only [l14, r14]
  rfl

/-- The value before the normalisation, along row r: the three layers of that row. -/
theorem row_hidden (r : Fin 100000) :
    nodeRow (val_main_v17 (F := Ideal) x0 x1 x2 x3 x4 x5 x6 x7 x8) r = hidden (nodeRow (val_main_v2 (F := Ideal) x1 x2) r) (nodeRow x0 r) (upperHalf x3) (lowerHalf x3) (vector x4) (square x5) (vector x6) (square x7) (vector x8) := by
  rw [row_third, row_second, row_first]
  rfl

/-! ## The row statistics -/

theorem mean_apply (r : Fin 100000) :
    val_main_v21 (F := Ideal) x0 x1 x2 x3 x4 x5 x6 x7 x8 (ix2 r (0 : Fin 1)) = mean (nodeRow (val_main_v17 (F := Ideal) x0 x1 x2 x3 x4 x5 x6 x7 x8) r) := by
  rw [val_main_v21_apply, val_main_v19_apply, e19, val_main_v18_apply, val_main_v20_apply, val_main_cst_1_apply,
    val_main_cst_0_apply]
  simp only [e18]
  rw [Ideal.ofBits_def, Ideal.ofBits_zero_f32, zero_add]
  rfl

theorem centered_apply (r : Fin 100000) (c : Fin 128) :
    val_main_v23 (F := Ideal) x0 x1 x2 x3 x4 x5 x6 x7 x8 (ix2 r c) = centered (nodeRow (val_main_v17 (F := Ideal) x0 x1 x2 x3 x4 x5 x6 x7 x8) r) c := by
  rw [val_main_v23_apply, val_main_v22_apply, e22, mean_apply]
  rfl

theorem centered_apply' (r : Fin 100000) (c : Fin 128) :
    val_main_v30 (F := Ideal) x0 x1 x2 x3 x4 x5 x6 x7 x8 (ix2 r c) = centered (nodeRow (val_main_v17 (F := Ideal) x0 x1 x2 x3 x4 x5 x6 x7 x8) r) c := by
  rw [val_main_v30_apply, val_main_v29_apply, e29, mean_apply]
  rfl

theorem variance_apply (r : Fin 100000) :
    val_main_v28 (F := Ideal) x0 x1 x2 x3 x4 x5 x6 x7 x8 (ix2 r (0 : Fin 1))
      = mean (fun c => centered (nodeRow (val_main_v17 (F := Ideal) x0 x1 x2 x3 x4 x5 x6 x7 x8) r) c * centered (nodeRow (val_main_v17 (F := Ideal) x0 x1 x2 x3 x4 x5 x6 x7 x8) r) c) := by
  rw [val_main_v28_apply, val_main_v26_apply, e26, val_main_v25_apply, val_main_v27_apply, val_main_cst_3_apply,
    val_main_cst_2_apply]
  simp only [e25]
  have sq : ∀ k : Fin 128, val_main_v24 (F := Ideal) x0 x1 x2 x3 x4 x5 x6 x7 x8 (ix2 r k)
      = centered (nodeRow (val_main_v17 (F := Ideal) x0 x1 x2 x3 x4 x5 x6 x7 x8) r) k * centered (nodeRow (val_main_v17 (F := Ideal) x0 x1 x2 x3 x4 x5 x6 x7 x8) r) k := fun k => by
    rw [val_main_v24_apply, centered_apply]
    rfl
  simp only [sq]
  rw [Ideal.ofBits_def, Ideal.ofBits_zero_f32, zero_add]
  rfl

/-! ## The result -/

/-- The reference's result at row r and lane q: the update of row r. -/
theorem result_apply (r : Fin 100000) (q : Fin 128) :
    val_main_v42 (F := Ideal) x0 x1 x2 x3 x4 x5 x6 x7 x8 x9 x10 (ix2 r q)
      = update (nodeRow (val_main_v2 (F := Ideal) x1 x2) r) (nodeRow x0 r) (upperHalf x3) (lowerHalf x3) (vector x4) (square x5)
          (vector x6) (square x7) (vector x8) (vector x9) (vector x10) q := by
  rw [val_main_v42_apply, val_main_v41_apply, val_main_v38_apply, val_main_v35_apply, centered_apply', val_main_v34_apply, e34,
    val_main_v33_apply, val_main_v32_apply, variance_apply, val_main_v31_apply, val_main_cst_4_apply, val_main_v37_apply,
    val_main_v36_apply, e37, e36, val_main_v40_apply, val_main_v39_apply, e40, e39, row_hidden]
  rfl

/-- The reference's result is the array of node updates. -/
theorem result_eq :
    val_main_v42 (F := Ideal) x0 x1 x2 x3 x4 x5 x6 x7 x8 x9 x10 = arrayUpdate (val_main_v2 (F := Ideal) x1 x2) x0 x3 x4 x5 x6 x7 x8 x9 x10 := by
  funext i
  obtain ⟨r, q, rfl⟩ : ∃ (r : Fin 100000) (q : Fin 128), i = ix2 r q := ⟨i 0, i 1, eq_ix2 i⟩
  rw [result_apply]
  rfl

end Cert.ReferenceIdeal.RowValue

end
-- ==== Proof.Agree.lean ====
/-
  The two programs aggregate the same messages.

  Both programs begin by summing the edge features onto their destination nodes, with the same dimension numbers, from the
  same array of zeros and the same destination indices laid out as a one-column array. Run on the same edge features and
  destinations they therefore hold one and the same array of aggregated messages; what that array is, entry by entry, plays
  no part.
-/
import proofs.«130851_j26474178413324_2_alg».proof.Proof.HostArrays
import proofs.«130851_j26474178413324_2_alg».proof.Proof.RefRow

noncomputable section

namespace Cert.Proof.Agree

open Idealize.ShloMosaic Idealize.ShloMosaic.TcCoe Idealize.SL.Sem

/-- The reference's aggregated messages of the kernel program's edge features and destinations are the kernel program's. -/
theorem messages_agree (m : (ℓ : Loc Cert.KernelIdeal.nD Cert.KernelIdeal.τ Cert.KernelIdeal.sig) → Buf (Elt Ideal) ℓ)
    (c : Dev Cert.KernelIdeal.nD) :
    Cert.ReferenceIdeal.Read.val_main_v2 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      = Cert.KernelIdeal.HostValue.messages m c := by
  unfold Cert.ReferenceIdeal.Read.val_main_v2 Cert.KernelIdeal.HostValue.messages
  exact Cert.KernelIdeal.HostValue.scatterAdd_congr _ _ rfl _ _ rfl _ _ rfl _ _ rfl

end Cert.Proof.Agree

end
-- ==== Proof.lean ====
/-
  A graph network's node update, tiled over blocks of nodes, against its plain reference.

  Both programs sum the edge features onto their destination nodes (one and the same array H of aggregated messages) and then
  update every node from its own row of H and of the features X: three layers, layer normalisation, and the residual. The
  reference joins the two rows into one vector of 256 numbers and multiplies by the 256 × 128 weights; the kernel multiplies
  the messages' row by the upper 128 rows of the weights and the features' row by the lower 128 and adds the two products. A
  sum over 256 indices is the sum over the first 128 plus the sum over the last 128, so the two first layers agree on the
  extended reals with no finiteness assumption, and every later step is the same operation on both sides (a change of number
  format is the identity at the ideal values; a sum started from the number zero is that sum).

  The kernel runs at twenty grid points, 5000 nodes each. A node's update depends on the node's own two rows alone, so the
  block a point writes back is the corresponding 5000 rows of the array of node updates, and the twenty blocks tile the
  100000 rows (Proof/Blocks.lean). The reference's result is the same array of node updates (Proof/RefRow.lean), and the
  two arrays of aggregated messages are one array when the arguments agree (Proof/Agree.lean).

  The three frame conjuncts are the generated frames of the two kernel programs and the reference's generated run with its
  result dropped. The idealised kernel is the kernel's own text read at the ideal values: no rewrite was applied, and that
  conjunct is trivial.
-/
import proofs.«130851_j26474178413324_2_alg».proof.Defs
import proofs.«130851_j26474178413324_2_alg».proof.Proof.Gen.Kernel
import proofs.«130851_j26474178413324_2_alg».proof.Proof.Gen.Kernel.Skeleton
import proofs.«130851_j26474178413324_2_alg».proof.Proof.Gen.Kernel.Launch
import proofs.«130851_j26474178413324_2_alg».proof.Proof.Gen.Kernel.Points
import proofs.«130851_j26474178413324_2_alg».proof.Proof.Gen.Kernel.Frame
import proofs.«130851_j26474178413324_2_alg».proof.Proof.Gen.KernelIdeal
import proofs.«130851_j26474178413324_2_alg».proof.Proof.Gen.KernelIdeal.Skeleton
import proofs.«130851_j26474178413324_2_alg».proof.Proof.Gen.KernelIdeal.Launch
import proofs.«130851_j26474178413324_2_alg».proof.Proof.Gen.KernelIdeal.Points
import proofs.«130851_j26474178413324_2_alg».proof.Proof.Gen.KernelIdeal.Frame
import proofs.«130851_j26474178413324_2_alg».proof.Proof.Gen.ReferenceIdeal
import proofs.«130851_j26474178413324_2_alg».proof.Proof.Gen.Pre_finite_inputs
import proofs.«130851_j26474178413324_2_alg».proof.Proof.Gen.KernelIdeal.Value
import proofs.«130851_j26474178413324_2_alg».proof.Proof.Gen.ReferenceIdeal.Run
import proofs.«130851_j26474178413324_2_alg».proof.Proof.Gen.ReferenceIdeal.Read
import proofs.«130851_j26474178413324_2_alg».proof.Proof.Blocks
import proofs.«130851_j26474178413324_2_alg».proof.Proof.RefRow
import proofs.«130851_j26474178413324_2_alg».proof.Proof.Agree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the array of node updates of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v42_eq, Cert.ReferenceIdeal.RowValue.result_eq, h0, h1, h2, h3, h4, h5, h6, h7, h8, h9,
    h10, Cert.Proof.Agree.messages_agree]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
